-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S40000x128 .f32) (main_arg1 : IVec S640000 32) (main_arg2 : IVec S640000 32) (main_arg3 : FVec F S128x128 .f32) (main_arg4 : FVec F S128 .f32) (main_arg5 : FVec F S128x128 .f32) (main_arg6 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩
abbrev S2000x128 : Shape := ⟨2, ![2000, 128]⟩

abbrev nBuf : Space → Nat
  | .hbm => 37
  | .vmem => 10
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S640000, .i32⟩
  | .hbm, ⟨9, _⟩ => ⟨S640000, .i1⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S640000, .i32⟩
  | .hbm, ⟨14, _⟩ => ⟨S640000x1, .i32⟩
  | .hbm, ⟨15, _⟩ => ⟨S640000x128, .f32⟩
  | .hbm, ⟨16, _⟩ => ⟨S_, .f32⟩
  | .hbm, ⟨17, _⟩ => ⟨S40000x128, .f32⟩
  | .hbm, ⟨18, _⟩ => ⟨S640000x1, .i32⟩
  | .hbm, ⟨19, _⟩ => ⟨S40000x128, .f32⟩
  | .hbm, ⟨20, _⟩ => ⟨S_, .f32⟩
  | .hbm, ⟨21, _⟩ => ⟨S640000, .f32⟩
  | .hbm, ⟨22, _⟩ => ⟨S_, .f32⟩
  | .hbm, ⟨23, _⟩ => ⟨S40000, .f32⟩
  | .hbm, ⟨24, _⟩ => ⟨S640000x1, .i32⟩
  | .hbm, ⟨25, _⟩ => ⟨S40000, .f32⟩
  | .hbm, ⟨26, _⟩ => ⟨S_, .f32⟩
  | .hbm, ⟨27, _⟩ => ⟨S40000, .f32⟩
  | .hbm, ⟨28, _⟩ => ⟨S40000, .f32⟩
  | .hbm, ⟨29, _⟩ => ⟨S40000x1, .f32⟩
  | .hbm, ⟨30, _⟩ => ⟨S40000x128, .f32⟩
  | .hbm, ⟨31, _⟩ => ⟨S40000x128, .f32⟩
  | .hbm, ⟨32, _⟩ => ⟨S128x128, .f32⟩
  | .hbm, ⟨33, _⟩ => ⟨S128x128, .f32⟩
  | .hbm, ⟨34, _⟩ => ⟨S1x128, .f32⟩
  | .hbm, ⟨35, _⟩ => ⟨S1x128, .f32⟩
  | .hbm, ⟨36, _⟩ => ⟨S40000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S40000x128.size a
  hwx0_1 : ∀ i : grid0.Coords, EltTy.bits .f32 = 32 ∨ (Rect.block (s := S40000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S40000x128.size a
  hwx0_6 : ∀ i : grid0.Coords, EltTy.bits .f32 = 32 ∨ (Rect.block (s := S40000x128) S2000x128.size (cc0_transform_6 i) (hinb0_6 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩

abbrev nBuf : Space → Nat
  | .hbm => 44
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S640000, .i32⟩
  | .hbm, ⟨9, _⟩ => ⟨S640000, .i1⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S640000, .i32⟩
  | .hbm, ⟨14, _⟩ => ⟨S640000x1, .i32⟩
  | .hbm, ⟨15, _⟩ => ⟨S640000x128, .f32⟩
  | .hbm, ⟨16, _⟩ => ⟨S_, .f32⟩
  | .hbm, ⟨17, _⟩ => ⟨S40000x128, .f32⟩
  | .hbm, ⟨18, _⟩ => ⟨S640000x1, .i32⟩
  | .hbm, ⟨19, _⟩ => ⟨S40000x128, .f32⟩
  | .hbm, ⟨20, _⟩ => ⟨S_, .f32⟩
  | .hbm, ⟨21, _⟩ => ⟨S640000, .f32⟩
  | .hbm, ⟨22, _⟩ => ⟨S_, .f32⟩
  | .hbm, ⟨23, _⟩ => ⟨S40000, .f32⟩
  | .hbm, ⟨24, _⟩ => ⟨S640000x1, .i32⟩
  | .hbm, ⟨25, _⟩ => ⟨S40000, .f32⟩
  | .hbm, ⟨26, _⟩ => ⟨S_, .f32⟩
  | .hbm, ⟨27, _⟩ => ⟨S40000, .f32⟩
  | .hbm, ⟨28, _⟩ => ⟨S40000, .f32⟩
  | .hbm, ⟨29, _⟩ => ⟨S40000x1, .f32⟩
  | .hbm, ⟨30, _⟩ => ⟨S40000x128, .f32⟩
  | .hbm, ⟨31, _⟩ => ⟨S40000x128, .f32⟩
  | .hbm, ⟨32, _⟩ => ⟨S40000x128, .f32⟩
  | .hbm, ⟨33, _⟩ => ⟨S1x128, .f32⟩
  | .hbm, ⟨34, _⟩ => ⟨S40000x128, .f32⟩
  | .hbm, ⟨35, _⟩ => ⟨S40000x128, .f32⟩
  | .hbm, ⟨36, _⟩ => ⟨S40000x128, .f32⟩
  | .hbm, ⟨37, _⟩ => ⟨S40000x128, .f32⟩
  | .hbm, ⟨38, _⟩ => ⟨S1x128, .f32⟩
  | .hbm, ⟨39, _⟩ => ⟨S40000x128, .f32⟩
  | .hbm, ⟨40, _⟩ => ⟨S40000x128, .f32⟩
  | .hbm, ⟨41, _⟩ => ⟨S_, .f32⟩
  | .hbm, ⟨42, _⟩ => ⟨S40000x128, .f32⟩
  | .hbm, ⟨43, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_1_0_0_n_n_wf : DotDims.WF S40000x128 S128x128 S40000x128 [1] [1] [0] [0] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_1_0_0_n_n : DotDims S40000x128 S128x128 S40000x128 where
  lhsContracting := [1]
  rhsContracting := [1]
  lhsNonContracting := [0]
  rhsNonContracting := [0]
  lhsBatch := []
  rhsBatch := []
  wf := dot_S40000x128_S128x128_S40000x128_1_1_0_0_n_n_wf

class Facts : Prop extends Facts₀ where

variable [Facts]
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.Payload.lean ====
/-
  What the kernel body stores, entry by entry.

  On one block of 2000 nodes the body multiplies the block of feature rows by the first weight matrix and the block of
  neighbour means by the second (each product into a zero accumulator, the operands rounded to bf16 on the way in — no
  change on the extended reals), adds the two products, adds the two bias rows spread over the block's rows, and clips at
  zero. At local row `p` and column `o` that is

      max( Σ_k x0[p,k]·x2[k,o] + Σ_k x1[p,k]·x3[k,o] + x4[0,o] + x5[0,o] , 0 ).
-/
import proofs.«116643_j12790412607512_1_alg».proof.Proof.Gen.KernelIdeal.Skeleton
import proofs.«116643_j12790412607512_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- One of the body's two matrix products, read at `(p, o)`: the block's row `p` against the weight matrix's column `o`. -/
theorem product_apply (l : FVec Ideal S2000x128 .bf16) (r : FVec Ideal S128x128 .bf16) (p : Fin 2000) (o : Fin 128) :
    matmul dot_S2000x128_S128x128_S2000x128_1_0_0_1_n_n none l r (constant S2000x128 .f32 0x00000000#32) (ix2 p o)
      = ∑ k : Fin 128, l (ix2 p k) * r (ix2 k o) :=
  Cert.Lib.plain_matmul_zero_apply 2000 128 128 none l r p o

/-- The stored block at local row `p`, column `o`. -/
theorem payload_apply (x0 x1 : Vec Ideal S2000x128 .f32) (x2 x3 : Vec Ideal S128x128 .f32) (x4 x5 : Vec Ideal S1x128 .f32)
    (p : Fin 2000) (o : Fin 128) :
    k0_pay1 x0 x1 x2 x3 x4 x5 (ix2 p o)
      = max ((((∑ k : Fin 128, x0 (ix2 p k) * x2 (ix2 k o)) + ∑ k : Fin 128, x1 (ix2 p k) * x3 (ix2 k o))
              + x4 (ix2 (0 : Fin 1) o)) + x5 (ix2 (0 : Fin 1) o))
          (Ideal.ofBits .f32 0x00000000#32) := by
  unfold k0_pay1
  simp only [shapeCast_self]
  rw [maximumf_apply, addf_apply, addf_apply, addf_apply, broadcastTo_1b_ab_apply, broadcastTo_1b_ab_apply,
    product_apply, product_apply]
  rfl

end Cert.KernelIdeal.Body

end
-- ==== Proof.Blocks.lean ====
/-
  From the blocks the kernel writes to the whole output array.

  The grid has 20 points. Point `t` reads rows `2000·t … 2000·t + 1999` of the feature array and of the neighbour-mean
  array, the two weight matrices and the two bias rows whole, and writes rows `2000·t … 2000·t + 1999` of the output.
  So the stored block is the restriction to those rows of ONE function of the six arrays the region is entered with
  (`stage`), the 20 row blocks cover the output (row `r` lies in block `r / 2000`), and the output array ends holding
  `stage` of those arrays.
-/
import proofs.«116643_j12790412607512_1_alg».proof.Proof.Gen.KernelIdeal.Value
import proofs.«116643_j12790412607512_1_alg».proof.Proof.Payload
import Idealize.ShloMosaic.Lib.Pipeline.Value
import Idealize.ShloMosaic.Lib.ValueIdx
import Idealize.ShloMosaic.PureOps.Ideal

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-! ## The stage as one function of the six arrays the region is entered with -/

/-- Entry `(n, o)`: row `n` of the features against column `o` of the first (input-major) weight matrix, row `n` of the
    neighbour means against column `o` of the second, both bias rows at `o`, clipped below at zero. -/
def stageAt (a0 a1 : S40000x128.Idx → EReal) (a2 a3 : S128x128.Idx → EReal) (a4 a5 : S1x128.Idx → EReal)
    (n : Fin 40000) (o : Fin 128) : EReal :=
  max ((((∑ k : Fin 128, a0 (ix2 n k) * a2 (ix2 k o)) + ∑ k : Fin 128, a1 (ix2 n k) * a3 (ix2 k o))
          + a4 (ix2 (0 : Fin 1) o)) + a5 (ix2 (0 : Fin 1) o))
    (Ideal.ofBits .f32 0x00000000#32)

/-- The whole array. -/
def stage (a0 a1 : S40000x128.Idx → EReal) (a2 a3 : S128x128.Idx → EReal) (a4 a5 : S1x128.Idx → EReal) :
    S40000x128.Idx → EReal :=
  fun i => stageAt a0 a1 a2 a3 a4 a5 (i 0) (i 1)

/-- One stored entry is the stage's entry, when the row blocks are rows of the two long arrays at the array row the
    entry lands on and the four small blocks are their arrays. -/
theorem block_entry (a0 a1 : S40000x128.Idx → EReal) (a2 a3 : S128x128.Idx → EReal) (a4 a5 : S1x128.Idx → EReal)
    (x0 x1 : Vec Ideal S2000x128 .f32) (x2 x3 : Vec Ideal S128x128 .f32) (x4 x5 : Vec Ideal S1x128 .f32)
    (p : Fin 2000) (o : Fin 128) (q : Fin 40000)
    (h0 : ∀ k : Fin 128, x0 (ix2 p k) = a0 (ix2 q k)) (h1 : ∀ k : Fin 128, x1 (ix2 p k) = a1 (ix2 q k))
    (h2 : x2 = a2) (h3 : x3 = a3) (h4 : x4 = a4) (h5 : x5 = a5) :
    k0_pay1 x0 x1 x2 x3 x4 x5 (ix2 p o) = stageAt a0 a1 a2 a3 a4 a5 q o := by
  subst h2 h3 h4 h5
  rw [Cert.KernelIdeal.Body.payload_apply]
  unfold stageAt
  simp only [h0, h1]

section
variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the output and the two long inputs are at row block `t`, column block 0; the
    four small inputs at block (0, 0). -/
theorem idx_facts : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## Each input block read where the arrays hold it -/

/-- Local row `p` of the feature block at point `t` is row `2000·t + p` of the feature array. -/
theorem rows0 (c : Dev nD) (t : Fin cfg0.N) (p : Fin 2000) (k : Fin 128) (q : Fin 40000) (hq : q.val = t.val * 2000 + p.val) :
    (iblk m c 0 t : Vec Ideal S2000x128 .f32) (ix2 p k) = (V m c main_arg0 : S40000x128.Idx → EReal) (ix2 q k) := by
  obtain ⟨-, -, e0, e1, -⟩ := idx_facts t
  unfold iblk
  rw [View.read_apply]
  show V m c main_arg0 _ = V m c main_arg0 _
  refine congrArg _ ?_
  funext a
  apply Fin.ext
  match a with
  | ⟨0, _⟩ => show win0_0.index t (0 : Fin 2) * 2000 + 1 * p.val = q.val; rw [e0, hq]; omega
  | ⟨1, _⟩ => show win0_0.index t (1 : Fin 2) * 128 + 1 * k.val = k.val; rw [e1]; omega

/-- Local row `p` of the neighbour-mean block at point `t` is row `2000·t + p` of the neighbour-mean array. -/
theorem rows1 (c : Dev nD) (t : Fin cfg0.N) (p : Fin 2000) (k : Fin 128) (q : Fin 40000) (hq : q.val = t.val * 2000 + p.val) :
    (iblk m c 1 t : Vec Ideal S2000x128 .f32) (ix2 p k) = (V m c main_v18 : S40000x128.Idx → EReal) (ix2 q k) := by
  obtain ⟨-, -, -, -, e0, e1, -⟩ := idx_facts t
  unfold iblk
  rw [View.read_apply]
  show V m c main_v18 _ = V m c main_v18 _
  refine congrArg _ ?_
  funext a
  apply Fin.ext
  match a with
  | ⟨0, _⟩ => show win0_1.index t (0 : Fin 2) * 2000 + 1 * p.val = q.val; rw [e0, hq]; omega
  | ⟨1, _⟩ => show win0_1.index t (1 : Fin 2) * 128 + 1 * k.val = k.val; rw [e1]; omega

/-- The first weight block is the whole (transposed) first weight array, at every point. -/
theorem whole2 (c : Dev nD) (t : Fin cfg0.N) : (iblk m c 2 t : Vec Ideal S128x128 .f32) = (V m c main_v19 : S128x128.Idx → EReal) := by
  obtain ⟨-, -, -, -, -, -, e0, e1, -⟩ := idx_facts t
  funext y
  unfold iblk
  rw [View.read_apply]
  show V m c main_v19 _ = V m c main_v19 _
  refine congrArg _ ?_
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The second weight block is the whole (transposed) second weight array. -/
theorem whole3 (c : Dev nD) (t : Fin cfg0.N) : (iblk m c 3 t : Vec Ideal S128x128 .f32) = (V m c main_v20 : S128x128.Idx → EReal) := by
  obtain ⟨-, -, -, -, -, -, -, -, e0, e1, -⟩ := idx_facts t
  funext y
  unfold iblk
  rw [View.read_apply]
  show V m c main_v20 _ = V m c main_v20 _
  refine congrArg _ ?_
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The first bias block is the whole first bias row. -/
theorem whole4 (c : Dev nD) (t : Fin cfg0.N) : (iblk m c 4 t : Vec Ideal S1x128 .f32) = (V m c main_v21 : S1x128.Idx → EReal) := by
  obtain ⟨-, -, -, -, -, -, -, -, -, -, e0, e1, -⟩ := idx_facts t
  funext y
  unfold iblk
  rw [View.read_apply]
  show V m c main_v21 _ = V m c main_v21 _
  refine congrArg _ ?_
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The second bias block is the whole second bias row. -/
theorem whole5 (c : Dev nD) (t : Fin cfg0.N) : (iblk m c 5 t : Vec Ideal S1x128 .f32) = (V m c main_v22 : S1x128.Idx → EReal) := by
  obtain ⟨-, -, -, -, -, -, -, -, -, -, -, -, e0, e1⟩ := idx_facts t
  funext y
  unfold iblk
  rw [View.read_apply]
  show V m c main_v22 _ = V m c main_v22 _
  refine congrArg _ ?_
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-! ## What a point writes back, the cover, the final array -/

/-- Point `t` writes back block `t` of `stage` of the arrays the region is entered with. -/
theorem flushed_eq (c : Dev nD) (t : Fin cfg0.N) :
    (dats m 0 c).flushed 6 t = ((cfg0.win 6).blk t).view.read (Elt Ideal)
      (stage (V m c main_arg0) (V m c main_v18) (V m c main_v19) (V m c main_v20) (V m c main_v21) (V m c main_v22)) := by
  rw [Value.flushed6]
  unfold out0_6
  rw [View.canon_unit_zero hz]
  simp only [View.ld_unit_zero (S := S2000x128) hz, View.ld_unit_zero (S := S128x128) hz, View.ld_unit_zero (S := S1x128) hz]
  obtain ⟨e0, e1, -⟩ := idx_facts t
  funext j
  rw [View.read_apply]
  have hj0 : (j 0).val < 2000 := (j 0).isLt
  have hj1 : (j 1).val < 128 := (j 1).isLt
  have hx : (cfg0.win 6).xinj (grid0.coords t) j = ix2 (⟨(j 0).val, hj0⟩ : Fin 2000) (⟨(j 1).val, hj1⟩ : Fin 128) :=
    funext fun a => by match a with | ⟨0, _⟩ => rfl | ⟨1, _⟩ => rfl
  have hcol : (((cfg0.win 6).blk t).view.emb j) 1 = (⟨(j 1).val, hj1⟩ : Fin 128) := by
    apply Fin.ext
    show win0_6.index t (1 : Fin 2) * 128 + 1 * (j 1).val = (j 1).val
    rw [e1]; omega
  have hrow : ((((cfg0.win 6).blk t).view.emb j) 0).val = t.val * 2000 + (j 0).val := by
    show win0_6.index t (0 : Fin 2) * 2000 + 1 * (j 0).val = t.val * 2000 + (j 0).val
    rw [e0]; omega
  show k0_pay1 (iblk m c 0 t) (iblk m c 1 t) (iblk m c 2 t) (iblk m c 3 t) (iblk m c 4 t) (iblk m c 5 t)
      ((cfg0.win 6).xinj (grid0.coords t) j)
    = stageAt (V m c main_arg0) (V m c main_v18) (V m c main_v19) (V m c main_v20) (V m c main_v21) (V m c main_v22)
      ((((cfg0.win 6).blk t).view.emb j) 0) ((((cfg0.win 6).blk t).view.emb j) 1)
  rw [hx, hcol]
  exact block_entry (V m c main_arg0) (V m c main_v18) (V m c main_v19) (V m c main_v20) (V m c main_v21) (V m c main_v22)
    (iblk m c 0 t) (iblk m c 1 t) (iblk m c 2 t) (iblk m c 3 t) (iblk m c 4 t) (iblk m c 5 t)
    ⟨(j 0).val, hj0⟩ ⟨(j 1).val, hj1⟩ ((((cfg0.win 6).blk t).view.emb j) 0)
    (fun k => rows0 m c t _ k _ hrow) (fun k => rows1 m c t _ k _ hrow)
    (whole2 m c t) (whole3 m c t) (whole4 m c t) (whole5 m c t)

/-- An index of the output array is in point `t`'s block iff each coordinate is in the block's range on its axis. -/
theorem mem_blk (t : Fin cfg0.N) (i : S40000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v23).slice (win0_6.rect t)).set ↔ _
  rw [View.set_slice_whole, Rect.mem_set_unit]
  exact Iff.rfl

/-- Every row of the output lies in some point's block: row `r` in block `r / 2000`. -/
theorem cover (i : S40000x128.Idx) : ∃ t : Fin cfg0.N, (cfg0.win 6).flush t = true ∧ i ∈ ((cfg0.win 6).blk t).view.set := by
  have hi0 : (i 0).val < 40000 := (i 0).isLt
  have hi1 : (i 1).val < 128 := (i 1).isLt
  have hN : grid0.N = 20 := N_0
  have ht : (i 0).val / 2000 < grid0.N := by rw [hN]; omega
  obtain ⟨e0, e1, -⟩ := idx_facts ⟨(i 0).val / 2000, ht⟩
  refine ⟨⟨(i 0).val / 2000, ht⟩, flush0_6 _, ?_⟩
  rw [mem_blk]
  intro a
  match a with
  | ⟨0, _⟩ =>
    show win0_6.index ⟨(i 0).val / 2000, ht⟩ (0 : Fin 2) * 2000 ≤ (i 0).val
      ∧ (i 0).val < win0_6.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_6.index ⟨(i 0).val / 2000, ht⟩ (1 : Fin 2) * 128 ≤ (i 1).val
      ∧ (i 1).val < win0_6.index ⟨(i 0).val / 2000, ht⟩ (1 : Fin 2) * 128 + 128
    rw [e1]
    omega

/-- The output array after the run is `stage` of the arrays the region is entered with. -/
theorem final (c : Dev nD) : (dats m 0 c).arrAt 6 cfg0.N
    = stage (V m c main_arg0) (V m c main_v18) (V m c main_v19) (V m c main_v20) (V m c main_v21) (V m c main_v22) :=
  (dats m 0 c).arrAt_eq_of_cover 6 _ (fun t _ => flushed_eq m c t) cover

end

end Cert.KernelIdeal.Whole

end
-- ==== Proof.HostPrefix.lean ====
/-
  What the kernel's region finds in its operand arrays.

  Before the kernel is launched the host computes, from the features and the edge lists, the mean of each node's
  in-neighbours' feature rows: the rows gathered at the edges' sources are added into the rows of their destinations, the
  in-degrees are counted the same way, and each row sum is divided by its node's degree (at least one). It also
  transposes the two weight matrices and lays each bias vector out as one row. The kernel's second operand is that mean,
  its third and fourth the transposed weights, its fifth and sixth the bias rows. The mean is carried as ONE function of
  the features and the two edge lists and never opened: the reference computes the same function.
-/
import proofs.«116643_j12790412607512_1_alg».proof.Proof.Gen.KernelIdeal.Frame
import Idealize.ShloMosaic.Lib.StableHlo.Run
import Idealize.ShloMosaic.PureOps.Ideal

noncomputable section

namespace Cert.KernelIdeal.Whole

open Cert.KernelIdeal Cert.KernelIdeal.Gen Idealize.ShloMosaic Idealize.ShloMosaic.TcCoe Idealize.SL.Sem
open Idealize.ShloMosaic.StableHlo

/-- The mean of each node's in-neighbours' feature rows (zero for a node with none), from the features `x0`, the edges'
    sources `x1` and the edges' destinations `x2`, as the host computes it before the kernel. -/
def neighbourMean (x0 : FVec Ideal S40000x128 .f32) (x1 x2 : IVec S640000 32) : FVec Ideal S40000x128 .f32 :=
  Host.divf (F := Ideal) (Host.scatterAdd scatter_S40000x128_S640000x1_S640000x128_1_0_0_1 (broadcastInDim S40000x128 ![] bcast_S_S40000x128 (constant S_ .f32 0x00000000#32)) (broadcastInDim S640000x1 ![0] bcast_S640000_S640000x1_0 (x2)) (Host.gather gather_S40000x128_S640000x1_S640000x128_1_0_n_n_0_1_1128 (x0) (broadcastInDim S640000x1 ![0] bcast_S640000_S640000x1_0 (select (cmpi .slt (x1) (broadcastInDim S640000 ![] bcast_S_S640000 (constantI S_ 32 0#32))) (addi (x1) (broadcastInDim S640000 ![] bcast_S_S640000 (constantI S_ 32 40000#32))) (x1))))) (broadcastInDim S40000x128 ![0, 1] bcast_S40000x1_S40000x128_0_1 (broadcastInDim S40000x1 ![0] bcast_S40000_S40000x1_0 (maximumf (Host.scatterAdd scatter_S40000_S640000x1_S640000_n_0_0_1 (broadcastInDim S40000 ![] bcast_S_S40000 (constant S_ .f32 0x00000000#32)) (broadcastInDim S640000x1 ![0] bcast_S640000_S640000x1_0 (x2)) (broadcastInDim S640000 ![] bcast_S_S640000 (constant S_ .f32 0x3F800000#32))) (broadcastInDim S40000 ![] bcast_S_S40000 (constant S_ .f32 0x3F800000#32)))))

variable (m : (ℓ : Loc nD τ sig) → Buf (Elt Ideal) ℓ)

set_option maxHeartbeats 1000000 in
/-- The kernel's second operand is the neighbour mean of the arguments. -/
theorem V_v18 (c : Dev nD) : (V m c main_v18 : S40000x128.Idx → EReal)
    = neighbourMean (m ((c : Thread nD τ).loc main_arg0)) (m ((c : Thread nD τ).loc main_arg1)) (m ((c : Thread nD τ).loc main_arg2)) := by
  unfold neighbourMean
  dsimp only [Gen.V, Gen.hostOps0]
  after_results_simp <;> rfl

set_option maxHeartbeats 1000000 in
/-- Its third is the first weight matrix transposed. -/
theorem V_v19 (c : Dev nD) : (V m c main_v19 : S128x128.Idx → EReal)
    = transpose S128x128 [1, 0] (m ((c : Thread nD τ).loc main_arg3)) transposes_S128x128_S128x128_1_0 := by
  dsimp only [Gen.V, Gen.hostOps0]
  after_results_simp <;> rfl

set_option maxHeartbeats 1000000 in
/-- Its fourth is the second weight matrix transposed. -/
theorem V_v20 (c : Dev nD) : (V m c main_v20 : S128x128.Idx → EReal)
    = transpose S128x128 [1, 0] (m ((c : Thread nD τ).loc main_arg5)) transposes_S128x128_S128x128_1_0 := by
  dsimp only [Gen.V, Gen.hostOps0]
  after_results_simp <;> rfl

set_option maxHeartbeats 1000000 in
/-- Its fifth is the first bias vector as one row. -/
theorem V_v21 (c : Dev nD) : (V m c main_v21 : S1x128.Idx → EReal)
    = shapeCast S1x128 (m ((c : Thread nD τ).loc main_arg4)) shapeCasts_S128_S1x128 := by
  dsimp only [Gen.V, Gen.hostOps0]
  after_results_simp <;> rfl

set_option maxHeartbeats 1000000 in
/-- Its sixth is the second bias vector as one row. -/
theorem V_v22 (c : Dev nD) : (V m c main_v22 : S1x128.Idx → EReal)
    = shapeCast S1x128 (m ((c : Thread nD τ).loc main_arg6)) shapeCasts_S128_S1x128 := by
  dsimp only [Gen.V, Gen.hostOps0]
  after_results_simp <;> rfl

end Cert.KernelIdeal.Whole

end
-- ==== Proof.Spec.lean ====
/-
  The dense stage of one graph-convolution layer, entry by entry.

  A node `n` carries its own feature row `feat[n, ·]` and the mean `hn[n, ·]` of its in-neighbours' rows. The layer
  applies one linear map to each, adds the two bias vectors and clips at zero:

      out[n, o] = max( Σ_k feat[n,k]·ws[o,k] + Σ_k hn[n,k]·wn[o,k] + bs[o] + bn[o] , 0 )

  the weights stored output-major (`ws[o, k]`), all on the extended reals. The zero is kept as the float word both
  programs spell it with.
-/
import Idealize.ShloMosaic.PureOps.Ideal
import Idealize.ShloMosaic.Lib.ValueIdx

noncomputable section

namespace Cert.Spec

open Idealize.ShloMosaic Idealize.ShloMosaic.ValueIdx

/-- Entry `(n, o)` of the layer's output: the two linear maps of node `n`'s own row and of its neighbour mean, summed,
    plus both biases at `o`, clipped below at zero. -/
def entry (feat hn : (⟨2, ![40000, 128]⟩ : Shape).Idx → EReal) (ws wn : (⟨2, ![128, 128]⟩ : Shape).Idx → EReal)
    (bs bn : (⟨1, ![128]⟩ : Shape).Idx → EReal) (n : Fin 40000) (o : Fin 128) : EReal :=
  max ((((∑ k : Fin 128, feat (ix2 n k) * ws (ix2 o k)) + ∑ k : Fin 128, hn (ix2 n k) * wn (ix2 o k)) + bs (ix1 o)) + bn (ix1 o))
    (Ideal.ofBits .f32 0x00000000#32)

/-- The layer's whole output array. -/
def layer (feat hn : (⟨2, ![40000, 128]⟩ : Shape).Idx → EReal) (ws wn : (⟨2, ![128, 128]⟩ : Shape).Idx → EReal)
    (bs bn : (⟨1, ![128]⟩ : Shape).Idx → EReal) : (⟨2, ![40000, 128]⟩ : Shape).Idx → EReal :=
  fun i => entry feat hn ws wn bs bn (i 0) (i 1)

theorem layer_apply (feat hn : (⟨2, ![40000, 128]⟩ : Shape).Idx → EReal) (ws wn : (⟨2, ![128, 128]⟩ : Shape).Idx → EReal)
    (bs bn : (⟨1, ![128]⟩ : Shape).Idx → EReal) (n : Fin 40000) (o : Fin 128) :
    layer feat hn ws wn bs bn (ix2 n o) = entry feat hn ws wn bs bn n o := rfl

end Cert.Spec

end
-- ==== Proof.KernelRun.lean ====
/-
  The kernel's run computes the layer.

  The output array ends at `stage` of the arrays the region is entered with (the blocks-to-array step), and those are the
  features, the neighbour mean of the features and the edge lists, the two weight matrices transposed and the two bias
  vectors as rows (the host prefix). A transposed matrix read at `(k, o)` is the matrix at `(o, k)` and a one-row
  array read at `(0, o)` is the vector at `o`, so `stage` of these is the layer of the arguments.
-/
import proofs.«116643_j12790412607512_1_alg».proof.Proof.Blocks
import proofs.«116643_j12790412607512_1_alg».proof.Proof.HostPrefix
import proofs.«116643_j12790412607512_1_alg».proof.Proof.Spec
import Idealize.ShloMosaic.Lib.ValueLayout

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx

/-- A transposed weight matrix read at `(k, o)` is the matrix at `(o, k)`. -/
theorem transposed_apply (w : S128x128.Idx → EReal) (k o : Fin 128) :
    transpose S128x128 [1, 0] w transposes_S128x128_S128x128_1_0 (ix2 k o) = w (ix2 o k) :=
  transpose_ix2_apply w transposes_S128x128_S128x128_1_0 k o

/-- The stage over transposed weights and one-row biases is the layer over the weights and biases themselves. -/
theorem stage_eq_layer (a0 a1 : S40000x128.Idx → EReal) (w2 w3 : S128x128.Idx → EReal) (b4 b5 : S128.Idx → EReal) :
    stage a0 a1 (transpose S128x128 [1, 0] w2 transposes_S128x128_S128x128_1_0)
        (transpose S128x128 [1, 0] w3 transposes_S128x128_S128x128_1_0)
        (shapeCast S1x128 b4 shapeCasts_S128_S1x128) (shapeCast S1x128 b5 shapeCasts_S128_S1x128)
      = Cert.Spec.layer a0 a1 w2 w3 b4 b5 := by
  funext i
  obtain ⟨n, o, rfl⟩ : ∃ (n : Fin 40000) (o : Fin 128), i = ix2 n o := ⟨i 0, i 1, eq_ix2 i⟩
  rw [Cert.Spec.layer_apply]
  show stageAt a0 a1 _ _ _ _ n o = _
  unfold stageAt Cert.Spec.entry
  simp only [shapeCast_a_1a_apply]
  have s2 : (∑ k : Fin 128, a0 (ix2 n k) * transpose S128x128 [1, 0] w2 transposes_S128x128_S128x128_1_0 (ix2 k o))
      = ∑ k : Fin 128, a0 (ix2 n k) * w2 (ix2 o k) :=
    Finset.sum_congr rfl fun k _ => by rw [transposed_apply]
  have s3 : (∑ k : Fin 128, a1 (ix2 n k) * transpose S128x128 [1, 0] w3 transposes_S128x128_S128x128_1_0 (ix2 k o))
      = ∑ k : Fin 128, a1 (ix2 n k) * w3 (ix2 o k) :=
    Finset.sum_congr rfl fun k _ => by rw [transposed_apply]
  rw [s2, s3]

variable (m : (ℓ : Loc nD τ sig) → Buf (Elt Ideal) ℓ) (ρ : Dev nD → PrngReg)

/-- The output array after the run, as the layer of the argument arrays. -/
theorem final_layer (c : Dev nD) : (dats m 0 c).arrAt 6 cfg0.N
    = Cert.Spec.layer (m ((c : Thread nD τ).loc main_arg0))
        (neighbourMean (m ((c : Thread nD τ).loc main_arg0)) (m ((c : Thread nD τ).loc main_arg1)) (m ((c : Thread nD τ).loc main_arg2)))
        (m ((c : Thread nD τ).loc main_arg3)) (m ((c : Thread nD τ).loc main_arg5))
        (m ((c : Thread nD τ).loc main_arg4)) (m ((c : Thread nD τ).loc main_arg6)) := by
  rw [final, V_main_arg0, V_v18, V_v19, V_v20, V_v21, V_v22]
  exact stage_eq_layer _ _ _ _ _ _

/-- Every weakly fair execution of the kernel's program terminates with the result array at the layer of the argument
    arrays and the arguments unchanged. -/
theorem run : θ_run defs (onTc (τ := τ) (main (F := Ideal))) ⟨m, fun _ => 0, ρ⟩ fun r => ∀ c : Dev nD,
      r.2.mem ((c : Thread nD τ).loc main_v23)
        = Cert.Spec.layer (m ((c : Thread nD τ).loc main_arg0))
            (neighbourMean (m ((c : Thread nD τ).loc main_arg0)) (m ((c : Thread nD τ).loc main_arg1)) (m ((c : Thread nD τ).loc main_arg2)))
            (m ((c : Thread nD τ).loc main_arg3)) (m ((c : Thread nD τ).loc main_arg5))
            (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_layer m c), (h c).2⟩)
    (Cert.KernelIdeal.Value.run_blocks m ρ)

end Cert.KernelIdeal.Whole

end
-- ==== Proof.RefValue.lean ====
/-
  The reference computes the layer.

  Read entry by entry, the reference's last value is `max(((A + bs) + B) + bn, 0)` with `A` the product of the feature
  row with the first weight matrix and `B` the product of the neighbour mean with the second, each a sum over the 128
  input features with the weight matrices read output-major. The layer is `max(((A + B) + bs) + bn, 0)`: the two differ by
  the order of two summands, and addition on the extended reals is commutative and associative with no side condition.
-/
import proofs.«116643_j12790412607512_1_alg».proof.Proof.Gen.ReferenceIdeal.Read
import proofs.«116643_j12790412607512_1_alg».proof.Proof.Spec

noncomputable section

namespace Cert.ReferenceIdeal.RefValue

open Cert.ReferenceIdeal Cert.ReferenceIdeal.Read Idealize.ShloMosaic Idealize.ShloMosaic.ValueIdx

/-- A product's left operand at `(n, o)`, contraction position `k`, is read at `(n, k)`. -/
theorem lidx19 (n : Fin 40000) (o k : Fin 128) : lidx_main_v19 (ix2 n o) k = ix2 n k :=
  funext fun a => by match a with | ⟨0, _⟩ => rfl | ⟨1, _⟩ => rfl
theorem ridx19 (n : Fin 40000) (o k : Fin 128) : ridx_main_v19 (ix2 n o) k = ix2 o k :=
  funext fun a => by match a with | ⟨0, _⟩ => rfl | ⟨1, _⟩ => rfl
theorem lidx23 (n : Fin 40000) (o k : Fin 128) : lidx_main_v23 (ix2 n o) k = ix2 n k :=
  funext fun a => by match a with | ⟨0, _⟩ => rfl | ⟨1, _⟩ => rfl
theorem ridx23 (n : Fin 40000) (o k : Fin 128) : ridx_main_v23 (ix2 n o) k = ix2 o k :=
  funext fun a => by match a with | ⟨0, _⟩ => rfl | ⟨1, _⟩ => rfl
/-- A bias spread over the rows is read, at `(n, o)`, at `o`. -/
theorem idx20 (n : Fin 40000) (o : Fin 128) : idx_main_v20 (idx_main_v21 (ix2 n o)) = ix1 o :=
  funext fun a => by match a with | ⟨0, _⟩ => rfl
theorem idx25 (n : Fin 40000) (o : Fin 128) : idx_main_v25 (idx_main_v26 (ix2 n o)) = ix1 o :=
  funext fun a => by match a with | ⟨0, _⟩ => rfl

/-- The reference's result is the layer of the features, the neighbour means it computed, the weights and the biases. -/
theorem result_eq (x0 : (⟨S40000x128, .f32⟩ : BufTy).Contents (Elt Ideal)) (x1 x2 : (⟨S640000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v28 (F := Ideal) x0 x1 x2 x3 x4 x5 x6
      = Cert.Spec.layer x0 (val_main_v18 (F := Ideal) x0 x1 x2) x3 x5 x4 x6 := by
  funext i
  obtain ⟨n, o, rfl⟩ : ∃ (n : Fin 40000) (o : Fin 128), i = ix2 n o := ⟨i 0, i 1, eq_ix2 i⟩
  rw [Cert.Spec.layer_apply]
  unfold Cert.Spec.entry
  rw [val_main_v28_apply, val_main_v27_apply, val_main_v24_apply, val_main_v22_apply, val_main_v19_apply,
    val_main_v23_apply, val_main_v21_apply, val_main_v20_apply, val_main_v26_apply, val_main_v25_apply,
    val_main_call0_v0_apply, val_main_call0_cst_apply]
  simp only [lidx19, ridx19, lidx23, ridx23, idx20, idx25, Ideal.addf_def, Ideal.maximumf_def, Ideal.ofBits_def]
  rw [add_right_comm (∑ k : Fin 128, x0 (ix2 n k) * x3 (ix2 o k))]

end Cert.ReferenceIdeal.RefValue

end
-- ==== Proof.lean ====
/- One graph-convolution layer: the kernel's program and the reference compute the same array on the extended reals.

   Both programs first form, on the host and by the same operations, the mean `hn` of each node's in-neighbours'
   feature rows (rows gathered at the edges' sources, added into the rows of their destinations, divided by the
   in-degree, at least one). The reference then evaluates

       max( ((feat·Wsᵀ + bs) + hn·Wnᵀ) + bn , 0 )

   with two host products contracting the weights' second axis. The kernel's program transposes the two weight
   matrices, lays the biases out as rows, and runs the kernel over 20 blocks of 2000 nodes: on each block two products
   into zero accumulators (operands rounded to bf16 first, which changes nothing on the extended reals), their sum, the
   two bias rows, the clip at zero:

       max( ((feat·Wsᵀ + hn·Wnᵀ) + bs) + bn , 0 ).

   The two differ in the order of two summands only; addition of extended reals is commutative and associative
   whatever the operands, so the precondition (finite inputs) is never opened.

   Proof/Spec.lean states the layer entry by entry; Proof/RefValue.lean reads the reference's run as the layer;
   Proof/Payload.lean reads the kernel body's stored block entry by entry; Proof/Blocks.lean goes from the 20 stored
   blocks to the whole output array; Proof/HostPrefix.lean says what the host leaves in the kernel's operands;
   Proof/KernelRun.lean joins these into the kernel's run; Proof/LibPlainDot.lean is a general lemma on a plain matrix
   product read at an index. Here: the neighbour mean is one function on both sides, the frames, and the claim. -/
import proofs.«116643_j12790412607512_1_alg».proof.Defs
import proofs.«116643_j12790412607512_1_alg».proof.Proof.Gen.Kernel
import proofs.«116643_j12790412607512_1_alg».proof.Proof.Gen.Kernel.Skeleton
import proofs.«116643_j12790412607512_1_alg».proof.Proof.Gen.Kernel.Launch
import proofs.«116643_j12790412607512_1_alg».proof.Proof.Gen.Kernel.Points
import proofs.«116643_j12790412607512_1_alg».proof.Proof.Gen.Kernel.Frame
import proofs.«116643_j12790412607512_1_alg».proof.Proof.Gen.KernelIdeal
import proofs.«116643_j12790412607512_1_alg».proof.Proof.Gen.KernelIdeal.Skeleton
import proofs.«116643_j12790412607512_1_alg».proof.Proof.Gen.KernelIdeal.Launch
import proofs.«116643_j12790412607512_1_alg».proof.Proof.Gen.KernelIdeal.Points
import proofs.«116643_j12790412607512_1_alg».proof.Proof.Gen.KernelIdeal.Frame
import proofs.«116643_j12790412607512_1_alg».proof.Proof.Gen.ReferenceIdeal
import proofs.«116643_j12790412607512_1_alg».proof.Proof.Gen.Pre_finite_inputs
import proofs.«116643_j12790412607512_1_alg».proof.Proof.Gen.KernelIdeal.Value
import proofs.«116643_j12790412607512_1_alg».proof.Proof.Gen.ReferenceIdeal.Run
import proofs.«116643_j12790412607512_1_alg».proof.Proof.Gen.ReferenceIdeal.Read
import Idealize.ShloMosaic.Adequacy
import Idealize.ShloMosaic.Init

import proofs.«116643_j12790412607512_1_alg».proof.Proof.KernelRun
import proofs.«116643_j12790412607512_1_alg».proof.Proof.RefValue

noncomputable section

namespace Cert.Proof

open Idealize.ShloMosaic Idealize.SL.Sem

/-- The reference's neighbour mean and the one the kernel's host prefix computes are the same operations applied to the
    same arguments: one function. -/
theorem neighbourMean_eq (x0 : FVec Ideal Cert.KernelIdeal.S40000x128 .f32) (x1 x2 : IVec Cert.KernelIdeal.S640000 32) :
    Cert.ReferenceIdeal.Read.val_main_v18 (F := Ideal) x0 x1 x2 = Cert.KernelIdeal.Whole.neighbourMean x0 x1 x2 := rfl

/-- The kernel's program, word level: it runs and leaves its arguments unchanged. -/
theorem frame_kernel : Cert.frame_Kernel := fun m ρ _ => Cert.Kernel.Gen.frame m ρ

/-- The same of its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel's program. -/
theorem preserves : Cert.preserves_Kernel_KernelIdeal := trivial

/-- From memories agreeing on the arguments both programs end with the layer of the arguments in their result arrays:
    the kernel's run by the blocks-to-array step, the reference's by reading its operations one at a time, the neighbour
    mean the same function in both. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6, Cert.ReferenceIdeal.Read.val_main_v28_eq, Cert.ReferenceIdeal.RefValue.result_eq,
    neighbourMean_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
